-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S256x128 : Shape := ⟨2, ![256, 128]⟩
abbrev S128x256 : Shape := ⟨2, ![128, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S16x8192x256 .f32) (main_arg1 : FVec F S256x128 .f32) (main_arg2 : FVec F S128x256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S16x8192x256 : Shape := ⟨3, ![16, 8192, 256]⟩
abbrev S256x128 : Shape := ⟨2, ![256, 128]⟩
abbrev S128x256 : Shape := ⟨2, ![128, 256]⟩
abbrev S131072x256 : Shape := ⟨2, ![131072, 256]⟩
abbrev S4096x256 : Shape := ⟨2, ![4096, 256]⟩
abbrev S4096x128 : Shape := ⟨2, ![4096, 128]⟩
abbrev S4096 : Shape := ⟨1, ![4096]⟩
abbrev S4096x1 : Shape := ⟨2, ![4096, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x8192x256, .f32⟩
  | .hbm, ⟨1, _⟩ => ⟨S256x128, .f32⟩
  | .hbm, ⟨2, _⟩ => ⟨S128x256, .f32⟩
  | .hbm, ⟨3, _⟩ => ⟨S131072x256, .f32⟩
  | .hbm, ⟨4, _⟩ => ⟨S256x128, .bf16⟩
  | .hbm, ⟨5, _⟩ => ⟨S128x256, .bf16⟩
  | .hbm, ⟨6, _⟩ => ⟨S131072x256, .f32⟩
  | .hbm, ⟨7, _⟩ => ⟨S16x8192x256, .f32⟩
  | .local _ .vmem, ⟨0, _⟩ => ⟨S4096x256, .f32⟩
  | .local _ .vmem, ⟨1, _⟩ => ⟨S4096x256, .f32⟩
  | .local _ .vmem, ⟨2, _⟩ => ⟨S256x128, .bf16⟩
  | .local _ .vmem, ⟨3, _⟩ => ⟨S128x256, .bf16⟩
  | .local _ .vmem, ⟨4, _⟩ => ⟨S4096x256, .f32⟩
  | .local _ .vmem, ⟨5, _⟩ => ⟨S4096x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x256_S131072x256 : S16x8192x256.ShapeCasts S131072x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S4096x128_S4096 : S4096x128.Reduces [1] S4096
  shapeCasts_S4096_S4096x1 : S4096.ShapeCasts S4096x1
  broadcasts_S4096x1_S4096x128 : S4096x1.Broadcasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S131072x256_S16x8192x256 : S131072x256.ShapeCasts S16x8192x256
  dot_S4096x256_S256x128_S4096x128_1_0_0_1_n_n_wf : DotDims.WF S4096x256 S256x128 S4096x128 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S131072x256.size a
  hwx0_3 : ∀ i : grid0.Coords, EltTy.bits .f32 = 32 ∨ (Rect.block (s := S131072x256) S4096x256.size (cc0_transform_3 i) (hinb0_3 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S256x128 : Shape := ⟨2, ![256, 128]⟩
abbrev S128x256 : Shape := ⟨2, ![128, 256]⟩
abbrev S16x8192x128 : Shape := ⟨3, ![16, 8192, 128]⟩
abbrev S_ : Shape := ⟨0, ![]⟩
abbrev S16x8192 : Shape := ⟨2, ![16, 8192]⟩
abbrev S16x8192x1 : Shape := ⟨3, ![16, 8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S256x128, .f32⟩
  | .hbm, ⟨2, _⟩ => ⟨S128x256, .f32⟩
  | .hbm, ⟨3, _⟩ => ⟨S16x8192x128, .f32⟩
  | .hbm, ⟨4, _⟩ => ⟨S_, .f32⟩
  | .hbm, ⟨5, _⟩ => ⟨S16x8192x128, .f32⟩
  | .hbm, ⟨6, _⟩ => ⟨S16x8192x128, .f32⟩
  | .hbm, ⟨7, _⟩ => ⟨S16x8192x128, .f32⟩
  | .hbm, ⟨8, _⟩ => ⟨S_, .f32⟩
  | .hbm, ⟨9, _⟩ => ⟨S16x8192, .f32⟩
  | .hbm, ⟨10, _⟩ => ⟨S16x8192x1, .f32⟩
  | .hbm, ⟨11, _⟩ => ⟨S16x8192x128, .f32⟩
  | .hbm, ⟨12, _⟩ => ⟨S16x8192x128, .f32⟩
  | .hbm, ⟨13, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S16x8192x128 : S_.BroadcastsInDim S16x8192x128 (![] : Fin 0 → Fin S16x8192x128.rank)
  reducesTo_S16x8192x128_S16x8192_d2 : S16x8192x128.ReducesTo [2] S16x8192
  h_S_ : 0 < S_.numel
  bcast_S16x8192_S16x8192x1_0_1 : S16x8192.BroadcastsInDim S16x8192x1 (![0, 1] : Fin 2 → Fin S16x8192x1.rank)
  bcast_S16x8192x1_S16x8192x128_0_1_2 : S16x8192x1.BroadcastsInDim S16x8192x128 (![0, 1, 2] : Fin 3 → Fin S16x8192x128.rank)
  dot_S16x8192x256_S256x128_S16x8192x128_2_0_01_1_n_n_wf : DotDims.WF S16x8192x256 S256x128 S16x8192x128 [2] [0] [0, 1] [1] [] []
  dot_S16x8192x128_S128x256_S16x8192x256_2_0_01_1_n_n_wf : DotDims.WF S16x8192x128 S128x256 S16x8192x256 [2] [0] [0, 1] [1] [] []

variable [Facts₀]

def dot_S16x8192x256_S256x128_S16x8192x128_2_0_01_1_n_n : DotDims S16x8192x256 S256x128 S16x8192x128 where
  lhsContracting := [2]
  rhsContracting := [0]
  lhsNonContracting := [0, 1]
  rhsNonContracting := [1]
  lhsBatch := []
  rhsBatch := []
  wf := dot_S16x8192x256_S256x128_S16x8192x128_2_0_01_1_n_n_wf
def dot_S16x8192x128_S128x256_S16x8192x256_2_0_01_1_n_n : DotDims S16x8192x128 S128x256 S16x8192x256 where
  lhsContracting := [2]
  rhsContracting := [0]
  lhsNonContracting := [0, 1]
  rhsNonContracting := [1]
  lhsBatch := []
  rhsBatch := []
  wf := dot_S16x8192x128_S128x256_S16x8192x256_2_0_01_1_n_n_wf

class Facts : Prop extends Facts₀ where

variable [Facts]
-- ==== Proof.Spec.lean ====
/-
  The function both programs compute, on the extended reals.

  One row x (256 entries) of the input meets a key memory Wk [256, 128] and a value memory Wv [128, 256]:

    score s   =  ∑ k < 256, x k · Wk (k, s)                      the row's product with the key memory
    quad s    =  (score s + 5) · (score s + 5)                   the shifted score, squared
    weight s  =  quad s / ∑ s' < 128, quad s'                    normalized over the 128 memory slots
    rowOut d  =  ∑ s < 128, weight s · Wv (s, d)                 the weights' product with the value memory

  The quotient is the ideal instance's division, a total function on the extended reals, so nothing is assumed of
  the denominator. The whole result over X [16, 8192, 256] applies rowOut to each row X (b, n, ·); over the same
  rows laid out as a matrix [131072, 256] it applies rowOut to row b · 8192 + n.
-/
import Idealize.ShloMosaic.PureOps.Ideal
import Idealize.ShloMosaic.Lib.ValueIdx

noncomputable section

namespace Cert.Attn

open Idealize.ShloMosaic Idealize.ShloMosaic.ValueIdx

/-- The key memory [256, 128] and the value memory [128, 256] as functions of their indices. -/
abbrev KeyMem : Type := (⟨2, ![256, 128]⟩ : Shape).Idx → EReal
abbrev ValMem : Type := (⟨2, ![128, 256]⟩ : Shape).Idx → EReal

/-- The additive constant 5.0, as the extended real its f32 word encodes. -/
def shift : EReal := Ideal.ofBits .f32 0x40A00000#32

/-- The row's product with column s of the key memory. -/
def score (x : Fin 256 → EReal) (wk : KeyMem) (s : Fin 128) : EReal := ∑ k : Fin 256, x k * wk (ix2 k s)

/-- The shifted score, squared. -/
def quad (x : Fin 256 → EReal) (wk : KeyMem) (s : Fin 128) : EReal := (score x wk s + shift) * (score x wk s + shift)

/-- The squared score over the row's total of squared scores. -/
def weight (x : Fin 256 → EReal) (wk : KeyMem) (s : Fin 128) : EReal :=
  Ideal.div (quad x wk s) (∑ s' : Fin 128, quad x wk s')

/-- The weights' product with column d of the value memory. -/
def rowOut (x : Fin 256 → EReal) (wk : KeyMem) (wv : ValMem) (d : Fin 256) : EReal :=
  ∑ s : Fin 128, weight x wk s * wv (ix2 s d)

/-- The result over the rows laid out as a matrix [131072, 256]: entry (r, d) is rowOut of row r at d. -/
def rows (A : (⟨2, ![131072, 256]⟩ : Shape).Idx → EReal) (wk : KeyMem) (wv : ValMem) :
    (⟨2, ![131072, 256]⟩ : Shape).Idx → EReal :=
  fun i => rowOut (fun k => A (ix2 (⟨(i 0).val, (i 0).isLt⟩ : Fin 131072) k)) wk wv (⟨(i 1).val, (i 1).isLt⟩ : Fin 256)

/-- The result over X [16, 8192, 256]: entry (b, n, d) is rowOut of the row X (b, n, ·) at d. -/
def result (X : (⟨3, ![16, 8192, 256]⟩ : Shape).Idx → EReal) (wk : KeyMem) (wv : ValMem) :
    (⟨3, ![16, 8192, 256]⟩ : Shape).Idx → EReal :=
  fun i => rowOut (fun k => X (ix3 (⟨(i 0).val, (i 0).isLt⟩ : Fin 16) (⟨(i 1).val, (i 1).isLt⟩ : Fin 8192) k)) wk wv
    (⟨(i 2).val, (i 2).isLt⟩ : Fin 256)

theorem result_ix3 (X : (⟨3, ![16, 8192, 256]⟩ : Shape).Idx → EReal) (wk : KeyMem) (wv : ValMem)
    (b : Fin 16) (n : Fin 8192) (d : Fin 256) :
    result X wk wv (ix3 b n d) = rowOut (fun k => X (ix3 b n k)) wk wv d := rfl

/-- Entry i of the matrix form, when i is (r, d). -/
theorem rows_of_coords (A : (⟨2, ![131072, 256]⟩ : Shape).Idx → EReal) (wk : KeyMem) (wv : ValMem)
    (i : (⟨2, ![131072, 256]⟩ : Shape).Idx) (r : Fin 131072) (d : Fin 256)
    (h0 : (i 0).val = r.val) (h1 : (i 1).val = d.val) :
    rows A wk wv i = rowOut (fun k => A (ix2 r k)) wk wv d := by
  have e0 : (⟨(i 0).val, (i 0).isLt⟩ : Fin 131072) = r := Fin.ext h0
  have e1 : (⟨(i 1).val, (i 1).isLt⟩ : Fin 256) = d := Fin.ext h1
  unfold rows
  rw [e0, e1]

/-- rowOut depends on the row only through its entries. -/
theorem rowOut_congr {x y : Fin 256 → EReal} (h : ∀ k, x k = y k) (wk : KeyMem) (wv : ValMem) (d : Fin 256) :
    rowOut x wk wv d = rowOut y wk wv d := by
  rw [show x = y from funext h]

end Cert.Attn

end
-- ==== Proof.RefValue.lean ====
/-
  The reference computes the result function.

  Read one operation at a time, the reference's value at (b, n, d) is

    ∑ s < 128, ( q s / (0 + ∑ s' < 128, q s') ) · Wv (s, d),     q s = (∑ k < 256, X (b, n, k) · Wk (k, s) + 5)²,

  with the square written as a product of the shifted score with itself and the zero the initial value of the host's
  sum. The initial value adds nothing, so this is the row function of the specification at the row X (b, n, ·).
-/
import proofs.«150621_j47330539602295_2_alg».proof.Proof.Gen.ReferenceIdeal.Read
import proofs.«150621_j47330539602295_2_alg».proof.Proof.Spec
import Idealize.ShloMosaic.PureOps.Ideal.Laws

noncomputable section

namespace Cert.Attn.Ref

open Idealize.ShloMosaic Idealize.ShloMosaic.ValueIdx Cert.ReferenceIdeal Cert.ReferenceIdeal.Read Cert.Attn

/-- The squared shifted score of the reference at (b, n, s) is the specification's, at the row X (b, n, ·). -/
theorem quad_eq (X : (⟨S16x8192x256, .f32⟩ : BufTy).Contents (Elt Ideal)) (wk : (⟨S256x128, .f32⟩ : BufTy).Contents (Elt Ideal))
    (b : Fin 16) (n : Fin 8192) (s : Fin 128) :
    val_main_v3 (F := Ideal) X wk (ix3 b n s) = quad (fun k => X (ix3 b n k)) wk s := by
  have el : ∀ k : Fin 256, lidx_main_v0 (ix3 b n s) k = ix3 b n k := fun k => funext fun a => Fin.ext (by
    match a with | ⟨0, _⟩ => rfl | ⟨1, _⟩ => rfl | ⟨2, _⟩ => rfl)
  have er : ∀ k : Fin 256, ridx_main_v0 (ix3 b n s) k = ix2 k s := fun k => funext fun a => Fin.ext (by
    match a with | ⟨0, _⟩ => rfl | ⟨1, _⟩ => rfl)
  rw [val_main_v3_apply, val_main_v2_apply, val_main_v0_apply, val_main_v1_apply, val_main_cst_apply]
  simp only [el, er, Ideal.mulf_def, Ideal.addf_def, Ideal.ofBits_def]
  rfl

/-- The normalized weight of the reference at (b, n, s) is the specification's. -/
theorem weight_eq (X : (⟨S16x8192x256, .f32⟩ : BufTy).Contents (Elt Ideal)) (wk : (⟨S256x128, .f32⟩ : BufTy).Contents (Elt Ideal))
    (b : Fin 16) (n : Fin 8192) (s : Fin 128) :
    val_main_v7 (F := Ideal) X wk (ix3 b n s) = weight (fun k => X (ix3 b n k)) wk s := by
  have e6 : idx_main_v5 (idx_main_v6 (ix3 b n s)) = ix2 b n := funext fun a => Fin.ext (by
    match a with | ⟨0, _⟩ => rfl | ⟨1, _⟩ => rfl)
  have e4 : ∀ k : Fin 128, idx_main_v4 (ix2 b n) k = ix3 b n k := fun k => funext fun a => Fin.ext (by
    match a with | ⟨0, _⟩ => rfl | ⟨1, _⟩ => rfl | ⟨2, _⟩ => rfl)
  rw [val_main_v7_apply, val_main_v6_apply, val_main_v5_apply, e6, val_main_v4_apply, val_main_cst_0_apply, quad_eq]
  simp only [e4, quad_eq, Ideal.hostDivf_def, Ideal.ofBits_def, Ideal.ofBits_zero_f32, zero_add]
  rfl

/-- The reference's result is the specification's, index by index. -/
theorem result_eq (X : (⟨S16x8192x256, .f32⟩ : BufTy).Contents (Elt Ideal)) (wk : (⟨S256x128, .f32⟩ : BufTy).Contents (Elt Ideal))
    (wv : (⟨S128x256, .f32⟩ : BufTy).Contents (Elt Ideal)) :
    val_main_v8 (F := Ideal) X wk wv = result X wk wv := by
  funext i
  obtain ⟨b, n, d, rfl⟩ : ∃ (b : Fin 16) (n : Fin 8192) (d : Fin 256), i = ix3 b n d := ⟨i 0, i 1, i 2, eq_ix3 i⟩
  have el : ∀ s : Fin 128, lidx_main_v8 (ix3 b n d) s = ix3 b n s := fun s => funext fun a => Fin.ext (by
    match a with | ⟨0, _⟩ => rfl | ⟨1, _⟩ => rfl | ⟨2, _⟩ => rfl)
  have er : ∀ s : Fin 128, ridx_main_v8 (ix3 b n d) s = ix2 s d := fun s => funext fun a => Fin.ext (by
    match a with | ⟨0, _⟩ => rfl | ⟨1, _⟩ => rfl)
  rw [val_main_v8_apply, result_ix3]
  unfold rowOut
  exact Finset.sum_congr rfl fun s _ => by rw [el, er, weight_eq]

end Cert.Attn.Ref

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibColumn.lean ====
/-
  A column of row totals, read entry by entry.

  A body that normalizes each row of an [a, b] matrix by the row's total forms the totals as a vector [a], views the
  vector as a column [a, 1], and repeats the column along each row. Three facts read that chain at an index written
  by coordinates, over any extents:

  * the sum of an [a, b] matrix along its rows (a reduction over axis 1) has at entry p the value  ∑ q < b, x (p, q);
  * a vector [a] viewed as a column [a, 1] reads, at (p, 0), the vector's entry p: both sit at row-major position p;
  * a column [a, 1] repeated across b columns reads, at (p, q), the column's entry of row p.

  The first holds on the extended reals with no finiteness: it only names the terms of the sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- The index of an [a, b] matrix that lies over entry p of the row totals, at column q, is (p, q). -/
theorem lift_row {a b : ℕ} (h : (⟨2, ![a, b]⟩ : Shape).Reduces [1] ⟨1, ![a]⟩) (p : Fin a) (q : Fin b) :
    h.lift (ix1 p) q = ix2 p q :=
  funext fun c => Fin.ext (by
    match c with
    | ⟨0, _⟩ => rfl
    | ⟨1, _⟩ => rfl)

/-- A sum along the rows: entry p of the totals is the sum over the columns q of the matrix's entry (p, q). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  exact Finset.sum_congr rfl fun q _ => congrArg src (lift_row h p q)

/-- A vector viewed as a column reads, at (p, 0), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column repeated across b columns reads, at (p, q), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) ?_
  intro ax
  match ax with
  | ⟨0, _⟩ =>
    show p.val = if a = 1 then 0 else p.val
    split_ifs with ha
    · have := p.isLt; omega
    · rfl
  | ⟨1, _⟩ =>
    show (0 : ℕ) = if (1 : ℕ) = 1 then 0 else q.val
    rw [if_pos rfl]

/-- The whole chain: the row totals of x, viewed as a column and repeated along each row, read at (p, q) the total
    of row p. -/
theorem rowTotals_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) h₁) h₂ (ix2 p q)
      = ∑ q' : Fin b, src (ix2 p q') :=
  (broadcastTo_a1_ab_apply _ h₂ p q).trans
    ((shapeCast_a_a1_apply _ h₁ p (0 : Fin 1)).trans (rowSum_apply src acc h hφ hacc p))

end Cert.LibColumn

end
-- ==== Proof.BodyValue.lean ====
/-
  What the body computes on one tile of 4096 rows, entry by entry.

  On a tile x [4096, 256] with the key memory Wk and the value memory Wv resident, the body forms the tile's product
  with Wk into a zero accumulator, adds 5 to every entry, squares, sums each row, divides each entry by its row's
  sum, and multiplies the quotients with Wv into a zero accumulator. Rounding an operand to a shorter float format is
  the identity on the extended reals, and the body's casts of a block to its own shape are the identity. So entry
  (p, d) of what the body stores is the row function of the specification at row p of the tile.
-/
import proofs.«150621_j47330539602295_2_alg».proof.Proof.Gen.KernelIdeal.Skeleton
import proofs.«150621_j47330539602295_2_alg».proof.Proof.LibPlainDot
import proofs.«150621_j47330539602295_2_alg».proof.Proof.LibColumn
import proofs.«150621_j47330539602295_2_alg».proof.Proof.Spec

noncomputable section

namespace Cert.Attn.Body

open Idealize.ShloMosaic Idealize.ShloMosaic.ValueIdx Cert.KernelIdeal Cert.KernelIdeal.Gen Cert.Attn

/-- Where the first product reads its operands: the output's row on the left, the output's column on the right. -/
theorem key_lhs0 (j : S4096x128.Idx) (q : dot_S4096x256_S256x128_S4096x128_1_0_0_1_n_n.contr.Idx) :
    (dot_S4096x256_S256x128_S4096x128_1_0_0_1_n_n.lhsIdx j q 0).val = (j 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem key_rhs1 (j : S4096x128.Idx) (q : dot_S4096x256_S256x128_S4096x128_1_0_0_1_n_n.contr.Idx) :
    (dot_S4096x256_S256x128_S4096x128_1_0_0_1_n_n.rhsIdx j q 1).val = (j 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl
/-- The same for the second product. -/
theorem val_lhs0 (j : S4096x256.Idx) (q : dot_S4096x128_S128x256_S4096x256_1_0_0_1_n_n.contr.Idx) :
    (dot_S4096x128_S128x256_S4096x256_1_0_0_1_n_n.lhsIdx j q 0).val = (j 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
theorem val_rhs1 (j : S4096x256.Idx) (q : dot_S4096x128_S128x256_S4096x256_1_0_0_1_n_n.contr.Idx) :
    (dot_S4096x128_S128x256_S4096x256_1_0_0_1_n_n.rhsIdx j q 1).val = (j 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- The tile's squared shifted scores, as the body forms them. -/
def squares (x : FVec Ideal S4096x256 .f32) (wk : FVec Ideal S256x128 .bf16) : FVec Ideal S4096x128 .f32 :=
  mulf
    (addf (matmul dot_S4096x256_S256x128_S4096x128_1_0_0_1_n_n none
        (truncf .bf16 (shapeCast S4096x256 x shapeCasts_S4096x256_S4096x256) bitsLt_bf16_f32)
        (shapeCast S256x128 wk shapeCasts_S256x128_S256x128) (constant S4096x128 .f32 0x00000000#32))
      (broadcast S4096x128 (Scalar.ofBits (F := Ideal) .f32 0x40A00000#32)))
    (addf (matmul dot_S4096x256_S256x128_S4096x128_1_0_0_1_n_n none
        (truncf .bf16 (shapeCast S4096x256 x shapeCasts_S4096x256_S4096x256) bitsLt_bf16_f32)
        (shapeCast S256x128 wk shapeCasts_S256x128_S256x128) (constant S4096x128 .f32 0x00000000#32))
      (broadcast S4096x128 (Scalar.ofBits (F := Ideal) .f32 0x40A00000#32)))

/-- Entry (p, s) of the squares is the specification's squared shifted score of row p. -/
theorem squares_apply (x : FVec Ideal S4096x256 .f32) (wk : FVec Ideal S256x128 .bf16) (p : Fin 4096) (s : Fin 128) :
    squares x wk (ix2 p s) = quad (fun k => x (ix2 p k)) wk s := by
  have hm : matmul dot_S4096x256_S256x128_S4096x128_1_0_0_1_n_n none
        (truncf .bf16 (shapeCast S4096x256 x shapeCasts_S4096x256_S4096x256) bitsLt_bf16_f32)
        (shapeCast S256x128 wk shapeCasts_S256x128_S256x128) (constant S4096x128 .f32 0x00000000#32) (ix2 p s)
      = score (fun k => x (ix2 p k)) wk s := by
    refine (PlainDot.matmul_zero_ix2 dot_S4096x256_S256x128_S4096x128_1_0_0_1_n_n rfl rfl rfl rfl key_lhs0 key_rhs1
      none _ _ p s).trans ?_
    rw [shapeCast_self, shapeCast_self]
    rfl
  unfold squares quad
  rw [mulf_apply, addf_apply, hm, broadcast_apply]
  rfl

/-- The tile's normalized weights, as the body forms them. -/
def weights (x : FVec Ideal S4096x256 .f32) (wk : FVec Ideal S256x128 .bf16) : FVec Ideal S4096x128 .f32 :=
  divf (squares x wk)
    (broadcastTo S4096x128
      (shapeCast S4096x1
        (multiReduction .add [1] S4096 (squares x wk) 0x00000000#32 reduces_S4096x128_S4096 (.inl rfl) rfl)
        shapeCasts_S4096_S4096x1)
      broadcasts_S4096x1_S4096x128)

/-- Entry (p, s) of the weights is the specification's weight of row p. -/
theorem weights_apply (x : FVec Ideal S4096x256 .f32) (wk : FVec Ideal S256x128 .bf16) (p : Fin 4096) (s : Fin 128) :
    weights x wk (ix2 p s) = weight (fun k => x (ix2 p k)) wk s := by
  unfold weights weight
  rw [divf_apply, squares_apply]
  refine congrArg (Ideal.div _) ?_
  refine (LibColumn.rowTotals_apply (squares x wk) 0x00000000#32 reduces_S4096x128_S4096 (.inl rfl) rfl
    shapeCasts_S4096_S4096x1 broadcasts_S4096x1_S4096x128 p s).trans ?_
  exact Finset.sum_congr rfl fun s' _ => squares_apply x wk p s'

/-- The body's stored value is the product of the weights with the value memory. -/
theorem pay_eq (x : FVec Ideal S4096x256 .f32) (wk : FVec Ideal S256x128 .bf16) (wv : FVec Ideal S128x256 .bf16) :
    k0_pay1 (F := Ideal) x wk wv
      = matmul dot_S4096x128_S128x256_S4096x256_1_0_0_1_n_n none (truncf .bf16 (weights x wk) bitsLt_bf16_f32)
          (shapeCast S128x256 wv shapeCasts_S128x256_S128x256) (constant S4096x256 .f32 0x00000000#32) := rfl

/-- Entry (p, d) of what the body stores is the row function at row p of the tile. -/
theorem pay_apply (x : FVec Ideal S4096x256 .f32) (wk : FVec Ideal S256x128 .bf16) (wv : FVec Ideal S128x256 .bf16)
    (p : Fin 4096) (d : Fin 256) :
    k0_pay1 (F := Ideal) x wk wv (ix2 p d) = rowOut (fun k => x (ix2 p k)) wk wv d := by
  rw [pay_eq]
  refine (PlainDot.matmul_zero_ix2 dot_S4096x128_S128x256_S4096x256_1_0_0_1_n_n rfl rfl rfl rfl val_lhs0 val_rhs1
    none _ _ p d).trans ?_
  unfold rowOut
  refine Finset.sum_congr rfl fun s _ => ?_
  rw [truncf_apply, weights_apply, shapeCast_self]

end Cert.Attn.Body

end
-- ==== Proof.Flatten.lean ====
/-
  The two layouts of the rows.

  The array X [16, 8192, 256] and the matrix [131072, 256] hold the same rows: a reshape keeps row-major positions,
  and (b, n, k) and (b · 8192 + n, k) sit at the same position (b · 8192 + n) · 256 + k. So computing the row
  function on the matrix form of X and reshaping the outcome back is computing it on X: entry (b, n, d) reads row
  b · 8192 + n of the matrix, which is the row X (b, n, ·).
-/
import proofs.«150621_j47330539602295_2_alg».proof.Proof.Spec
import Idealize.ShloMosaic.Lib.Pipeline.Value

noncomputable section

namespace Cert.Attn

open Idealize.ShloMosaic Idealize.ShloMosaic.ValueIdx

/-- The matrix form of X reads, at (b · 8192 + n, k), the entry X (b, n, k). -/
theorem flat_apply (X : (⟨3, ![16, 8192, 256]⟩ : Shape).Idx → EReal)
    (h : (⟨3, ![16, 8192, 256]⟩ : Shape).ShapeCasts ⟨2, ![131072, 256]⟩)
    (b : Fin 16) (n : Fin 8192) (k : Fin 256) (hr : b.val * 8192 + n.val < 131072) :
    shapeCast ⟨2, ![131072, 256]⟩ X h (ix2 (⟨b.val * 8192 + n.val, hr⟩ : Fin 131072) k) = X (ix3 b n k) := by
  refine shapeCast_apply X h _ (ix3 b n k) ?_
  rw [Shape.rowMajor_val_two, Shape.rowMajor_val_three]
  rfl

/-- The row function on the matrix form of X, reshaped back, is the result function on X. -/
theorem unflatten_rows (X : (⟨3, ![16, 8192, 256]⟩ : Shape).Idx → EReal) (wk : KeyMem) (wv : ValMem)
    (h₁ : (⟨3, ![16, 8192, 256]⟩ : Shape).ShapeCasts ⟨2, ![131072, 256]⟩)
    (h₂ : (⟨2, ![131072, 256]⟩ : Shape).ShapeCasts ⟨3, ![16, 8192, 256]⟩) :
    shapeCast ⟨3, ![16, 8192, 256]⟩ (rows (shapeCast ⟨2, ![131072, 256]⟩ X h₁) wk wv) h₂ = result X wk wv := by
  funext i
  obtain ⟨b, n, d, rfl⟩ : ∃ (b : Fin 16) (n : Fin 8192) (d : Fin 256), i = ix3 b n d := ⟨i 0, i 1, i 2, eq_ix3 i⟩
  have hr : b.val * 8192 + n.val < 131072 := by omega
  refine (shapeCast_apply _ h₂ (ix3 b n d) (ix2 (⟨b.val * 8192 + n.val, hr⟩ : Fin 131072) d) ?_).trans ?_
  · rw [Shape.rowMajor_val_two, Shape.rowMajor_val_three]
    rfl
  rw [rows_of_coords _ wk wv _ (⟨b.val * 8192 + n.val, hr⟩ : Fin 131072) d rfl rfl, result_ix3]
  exact rowOut_congr (fun k => flat_apply X h₁ b n k hr) wk wv d

end Cert.Attn

end
-- ==== Proof.KernelValue.lean ====
/-
  The kernel's result, as one function of its arguments.

  The program reshapes X [16, 8192, 256] to a matrix [131072, 256], rounds the two memories to a shorter float
  format (the identity on the extended reals), runs the body over 32 tiles of 4096 consecutive rows with both
  memories resident, and reshapes the matrix of results back.

  * Tile t's block of the row matrix starts at row t · 4096: its row p is row t · 4096 + p of the matrix; the
    memories' blocks are the whole memories at every tile.
  * So what tile t writes back is block t of ONE matrix, the row function applied to every row of the row matrix
    (the body's payload at an entry is the row function at that row of the tile).
  * Row r lies in tile r / 4096, so the 32 blocks cover the result matrix, which therefore ends holding that matrix.
  * The host line after the region reshapes it; with the reshape before the region the two layouts cancel, and the
    program's result is the result function of X and the two memories.
-/
import proofs.«150621_j47330539602295_2_alg».proof.Proof.Gen.KernelIdeal.Frame
import proofs.«150621_j47330539602295_2_alg».proof.Proof.BodyValue
import proofs.«150621_j47330539602295_2_alg».proof.Proof.Spec
import proofs.«150621_j47330539602295_2_alg».proof.Proof.Flatten
import Idealize.ShloMosaic.Lib.StableHlo.Run
import Idealize.ShloMosaic.Lib.Pipeline.Value
import Idealize.ShloMosaic.PureOps.Ideal

noncomputable section

namespace Cert.Attn.Kernel

open Idealize.ShloMosaic Idealize.ShloMosaic.TcCoe Idealize.ShloMosaic.ValueIdx Idealize.SL.Sem
open Cert.KernelIdeal Cert.KernelIdeal.Gen Cert.Attn

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 tiles: the row matrix and the result matrix move one block of rows per tile,
    the memories stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks -/

/-- Row p of tile t's block of the row matrix is row t · 4096 + p of the matrix. -/
theorem tile_read (c : Dev nD) (t : Fin cfg0.N) (p : Fin 4096) (k : Fin 256) (hr : t.val * 4096 + p.val < 131072) :
    iblk m c 0 t (ix2 p k) = V m c main_v0 (ix2 (⟨t.val * 4096 + p.val, hr⟩ : Fin 131072) k) := by
  obtain ⟨e0, e1, -⟩ := idx_facts t
  show V m c main_v0 (((cfg0.win 0).blk t).view.emb (ix2 p k)) = V m c main_v0 _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 256 + 1 * k.val = k.val; omega

/-- The key memory's block is the whole key memory at every tile. -/
theorem key_read (c : Dev nD) (t : Fin cfg0.N) : (iblk m c 1 t : S256x128.Idx → EReal) = V m c main_v1 := by
  obtain ⟨-, -, e2, e3, -⟩ := idx_facts t
  funext y
  show V m c main_v1 (((cfg0.win 1).blk t).view.emb y) = V m c main_v1 y
  refine congrArg (V m c main_v1) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The value memory's block is the whole value memory at every tile. -/
theorem val_read (c : Dev nD) (t : Fin cfg0.N) : (iblk m c 2 t : S128x256.Idx → EReal) = V m c main_v2 := by
  obtain ⟨-, -, -, -, e4, e5, -⟩ := idx_facts t
  funext y
  show V m c main_v2 (((cfg0.win 2).blk t).view.emb y) = V m c main_v2 y
  refine congrArg (V m c main_v2) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-! ## What a tile writes back -/

/-- Tile t writes back block t of the row function applied to every row of the row matrix. -/
theorem flushed_eq (c : Dev nD) (t : Fin cfg0.N) :
    (dats m 0 c).flushed 3 t
      = ((cfg0.win 3).blk t).view.read (Elt Ideal) (rows (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S4096x256) hz, View.ld_unit_zero (S := S256x128) hz,
    View.ld_unit_zero (S := S128x256) hz]
  funext j
  obtain ⟨p, d, rfl⟩ : ∃ (p : Fin 4096) (d : Fin 256), j = ix2 p d := ⟨j 0, j 1, eq_ix2 j⟩
  obtain ⟨-, -, -, -, -, -, e6, e7⟩ := idx_facts t
  have ht : t.val < 32 := lt_of_lt_of_eq t.isLt (N_0 : cfg0.N = 32)
  have hr : t.val * 4096 + p.val < 131072 := by omega
  have h0 : ((((cfg0.win 3).blk t).view.emb (ix2 p d)) 0).val = t.val * 4096 + p.val := by
    show win0_3.index t (0 : Fin 2) * 4096 + 1 * p.val = t.val * 4096 + p.val
    omega
  have h1 : ((((cfg0.win 3).blk t).view.emb (ix2 p d)) 1).val = d.val := by
    show win0_3.index t (1 : Fin 2) * 256 + 1 * d.val = d.val
    omega
  show k0_pay1 (iblk m c 0 t) (iblk m c 1 t) (iblk m c 2 t) (ix2 p d)
    = rows (V m c main_v0) (V m c main_v1) (V m c main_v2) (((cfg0.win 3).blk t).view.emb (ix2 p d))
  refine (Body.pay_apply (iblk m c 0 t) (iblk m c 1 t) (iblk m c 2 t) p d).trans ?_
  refine Eq.trans ?_ (rows_of_coords (V m c main_v0) (V m c main_v1) (V m c main_v2) _
    (⟨t.val * 4096 + p.val, hr⟩ : Fin 131072) d h0 h1).symm
  rw [key_read m c t, val_read m c t]
  exact rowOut_congr (fun k => tile_read m c t p k hr) _ _ d

/-! ## The blocks cover the result matrix -/

/-- An index of the result matrix is in tile t's block iff each coordinate is in the block's range on its axis. -/
theorem mem_blk (t : Fin cfg0.N) (i : S131072x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v3).slice (win0_3.rect t)).set ↔ _
  rw [View.set_slice_whole, Rect.mem_set_unit]
  exact Iff.rfl

/-- Row r lies in tile r / 4096. -/
theorem cover (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  obtain ⟨t, ht⟩ : ∃ t : Fin cfg0.N, t.val = (i 0).val / 4096 :=
    ⟨⟨(i 0).val / 4096, by rw [show cfg0.N = 32 from N_0]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 256 ≤ (i 1).val ∧ (i 1).val < win0_3.index t (1 : Fin 2) * 256 + 256
    omega

/-- The result matrix after the region: the row function applied to every row of the row matrix. -/
theorem final (c : Dev nD) :
    (dats m 0 c).arrAt 3 cfg0.N = rows (V m c main_v0) (V m c main_v1) (V m c main_v2) :=
  (dats m 0 c).arrAt_eq_of_cover 3 _ (fun t _ => flushed_eq m c t) cover

/-! ## The host lines around the region -/

/-- The row matrix is X reshaped. -/
theorem V_rows (c : Dev nD) : (V m c main_v0 : S131072x256.Idx → EReal)
    = shapeCast S131072x256 (m ((c : Thread nD τ).loc main_arg0)) shapeCasts_S16x8192x256_S131072x256 := by
  show StableHlo.after hostOps0 (fun b => m (c, b)) (Proc.devRef .tc main_v0) = _
  after_results
  rfl

/-- The key memory the region finds is the key memory as launched: rounding is the identity on the extended reals. -/
theorem V_key (c : Dev nD) : (V m c main_v1 : S256x128.Idx → EReal) = m ((c : Thread nD τ).loc main_arg1) := by
  show StableHlo.after hostOps0 (fun b => m (c, b)) (Proc.devRef .tc main_v1) = _
  after_results
  rfl

/-- The same for the value memory. -/
theorem V_val (c : Dev nD) : (V m c main_v2 : S128x256.Idx → EReal) = m ((c : Thread nD τ).loc main_arg2) := by
  show StableHlo.after hostOps0 (fun b => m (c, b)) (Proc.devRef .tc main_v2) = _
  after_results
  rfl

/-- The program's result buffer after the host line that follows the region: the result function of the arguments. -/
theorem tail_eq (c : Dev nD) :
    (Pipeline.afterTail₀ cfgs (dats m) 0 (V0 m) [hostOps1] c main_v4 : S16x8192x256.Idx → EReal)
      = result (m ((c : Thread nD τ).loc main_arg0)) (m ((c : Thread nD τ).loc main_arg1))
          (m ((c : Thread nD τ).loc main_arg2)) := by
  have hw : Pipeline.withArrays (cfgs 0).spec c (V0 m c) (fun w => (dats m 0 c).arrAt w (cfgs 0).N)
      (Proc.devRef .tc main_v3) = rows (V m c main_v0) (V m c main_v1) (V m c main_v2) :=
    (Pipeline.withArrays_arr spec0 launch0.win.arr_inj c _ _ 3).trans (final m c)
  unfold Pipeline.afterTail₀
  show StableHlo.after hostOps1 _ (Proc.devRef .tc main_v4) = _
  after_results
  rw [hw, V_rows, V_key, V_val]
  exact unflatten_rows _ _ _ shapeCasts_S16x8192x256_S131072x256 shapeCasts_S131072x256_S16x8192x256

/-! ## The run -/

/-- Every weakly fair execution of the program terminates with its result buffer at the result function of the
    arguments, and the arguments unchanged. -/
theorem run : θ_run defs (onTc (τ := τ) (main (F := Ideal))) ⟨m, fun _ => 0, ρ⟩ fun r => ∀ c : Dev nD,
      r.2.mem ((c.tc : Thread nD τ).loc main_v4)
        = result (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Attn.Kernel

end
-- ==== Proof.lean ====
/-
  Equivalence, on the extended reals, of a tiled external-attention kernel and its reference.

  For X [16, 8192, 256], a key memory Wk [256, 128] and a value memory Wv [128, 256] both programs compute, for every
  row x = X (b, n, ·),

    out (b, n, d)  =  ∑ s < 128, ( q s / ∑ s' < 128, q s' ) · Wv (s, d),      q s = (∑ k < 256, x k · Wk (k, s) + 5)².

  The reference computes it on the whole arrays. The kernel views X as a matrix of 131072 rows, rounds the two
  memories to a shorter float format, processes 32 tiles of 4096 consecutive rows with both memories resident,
  and views the matrix of results as [16, 8192, 256] again. On the extended reals a change of float format is the
  identity; a matrix product into a zero accumulator and the host's product are the same sum; the kernel's row
  sums and the host's sum from the initial value zero are the same sum; and both quotients are the same total
  division. Each output row depends on its own input row only, so the tiling changes nothing, and the two reshapes
  cancel because (b, n, ·) and row b · 8192 + n sit at the same row-major positions. The two sides are therefore the
  same expression in the same entries: no law of arithmetic that needs finiteness is used, and the precondition is
  never opened.

  The three frames come from the generated frame certificates and the reference's generated run; the kernel's
  idealization rewrote no operation, so there is nothing to preserve beyond the program's own text.
-/
import proofs.«150621_j47330539602295_2_alg».proof.Defs
import proofs.«150621_j47330539602295_2_alg».proof.Proof.Gen.Kernel
import proofs.«150621_j47330539602295_2_alg».proof.Proof.Gen.Kernel.Skeleton
import proofs.«150621_j47330539602295_2_alg».proof.Proof.Gen.Kernel.Launch
import proofs.«150621_j47330539602295_2_alg».proof.Proof.Gen.Kernel.Points
import proofs.«150621_j47330539602295_2_alg».proof.Proof.Gen.Kernel.Frame
import proofs.«150621_j47330539602295_2_alg».proof.Proof.Gen.KernelIdeal
import proofs.«150621_j47330539602295_2_alg».proof.Proof.Gen.KernelIdeal.Skeleton
import proofs.«150621_j47330539602295_2_alg».proof.Proof.Gen.KernelIdeal.Launch
import proofs.«150621_j47330539602295_2_alg».proof.Proof.Gen.KernelIdeal.Points
import proofs.«150621_j47330539602295_2_alg».proof.Proof.Gen.KernelIdeal.Frame
import proofs.«150621_j47330539602295_2_alg».proof.Proof.Gen.ReferenceIdeal
import proofs.«150621_j47330539602295_2_alg».proof.Proof.Gen.ReferenceIdeal.Run
import proofs.«150621_j47330539602295_2_alg».proof.Proof.Gen.ReferenceIdeal.Read
import proofs.«150621_j47330539602295_2_alg».proof.Proof.Gen.Pre_finite_inputs
import proofs.«150621_j47330539602295_2_alg».proof.Proof.RefValue
import proofs.«150621_j47330539602295_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on X, Wk and Wv both programs end with the result function of those three arrays. -/
theorem algebraic : Cert.algebraic_KernelIdeal_ReferenceIdeal := by
  intro m ρ m' ρ' _ hagree
  refine ⟨_, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.Attn.Ref.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
